-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : IVec S2x640000 32) (main_arg2 : FVec F S256x512 .f32) (main_arg3 : FVec F S512 .f32) (main_arg4 : FVec F S512x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S10000x128 : Shape := ⟨2, ![10000, 128]⟩
abbrev S2x640000 : Shape := ⟨2, ![2, 640000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S128x512 : Shape := ⟨2, ![128, 512]⟩
abbrev S1x512 : Shape := ⟨2, ![1, 512]⟩
abbrev S1x128 : Shape := ⟨2, ![1, 128]⟩
abbrev S1000x128 : Shape := ⟨2, ![1000, 128]⟩
abbrev S1000x1 : Shape := ⟨2, ![1000, 1]⟩
abbrev S1000x512 : Shape := ⟨2, ![1000, 512]⟩

abbrev nBuf : Space → Nat
  | .hbm => 38
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S10000, .f32⟩
  | .hbm, ⟨27, _⟩ => ⟨S640000x1, .i32⟩
  | .hbm, ⟨28, _⟩ => ⟨S10000, .f32⟩
  | .hbm, ⟨29, _⟩ => ⟨S10000x1, .f32⟩
  | .hbm, ⟨30, _⟩ => ⟨S128x512, .f32⟩
  | .hbm, ⟨31, _⟩ => ⟨S128x512, .bf16⟩
  | .hbm, ⟨32, _⟩ => ⟨S128x512, .f32⟩
  | .hbm, ⟨33, _⟩ => ⟨S128x512, .bf16⟩
  | .hbm, ⟨34, _⟩ => ⟨S512x128, .bf16⟩
  | .hbm, ⟨35, _⟩ => ⟨S1x512, .f32⟩
  | .hbm, ⟨36, _⟩ => ⟨S1x128, .f32⟩
  | .hbm, ⟨37, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x1, .f32⟩
  | .local _ .vmem, ⟨5, _⟩ => ⟨S1000x1, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S512x128, .bf16⟩
  | .local _ .vmem, ⟨10, _⟩ => ⟨S1x128, .f32⟩
  | .local _ .vmem, ⟨11, _⟩ => ⟨S1000x128, .f32⟩
  | .local _ .vmem, ⟨12, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  shapeCasts_S10000_S10000x1 : S10000.ShapeCasts S10000x1
  slices_S256x512_S128x512_0_0 : S256x512.Slices ![0, 0] S128x512
  bitsLt_bf16_f32 : FTy.bits .bf16 < FTy.bits .f32
  slices_S256x512_S128x512_128_0 : S256x512.Slices ![128, 0] S128x512
  shapeCasts_S512_S1x512 : S512.ShapeCasts S1x512
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  shapeCasts_S1000x128_S1000x128 : S1000x128.ShapeCasts S1000x128
  broadcasts_S1000x1_S1000x128 : S1000x1.Broadcasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S10000x128.size a
  hwx0_8 : ∀ i : grid0.Coords, EltTy.bits .f32 = 32 ∨ (Rect.block (s := S10000x128) S1000x128.size (cc0_transform_8 i) (hinb0_8 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S10000x512 : Shape := ⟨2, ![10000, 512]⟩
abbrev S1x512 : Shape := ⟨2, ![1, 512]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S256x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S10000, .f32⟩
  | .hbm, ⟨27, _⟩ => ⟨S640000x1, .i32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S10000x256, .f32⟩
  | .hbm, ⟨36, _⟩ => ⟨S10000x512, .f32⟩
  | .hbm, ⟨37, _⟩ => ⟨S1x512, .f32⟩
  | .hbm, ⟨38, _⟩ => ⟨S10000x512, .f32⟩
  | .hbm, ⟨39, _⟩ => ⟨S10000x512, .f32⟩
  | .hbm, ⟨40, _⟩ => ⟨S_, .f32⟩
  | .hbm, ⟨41, _⟩ => ⟨S10000x512, .f32⟩
  | .hbm, ⟨42, _⟩ => ⟨S10000x512, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x256_S256x512_S10000x512_1_0_0_1_n_n_wf : DotDims.WF S10000x256 S256x512 S10000x512 [1] [0] [0] [1] [] []
  dot_S10000x512_S512x128_S10000x128_1_0_0_1_n_n_wf : DotDims.WF S10000x512 S512x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.LayerSpec.lean ====
/-
  The layer both programs compute, for one node, over the extended reals.

  A node has a feature row `x` (128 numbers), the sum `s` of its in-neighbours' feature rows and the
  number `cn` of those neighbours. Its neighbour mean is `s k / max cn 1`. The first linear map acts on
  the row `x` followed by the mean row (256 numbers) through a 256 × 512 matrix; written with the
  matrix cut into its upper and lower 128 rows it is the sum of two 128-term sums, plus the bias; the
  rectifier is `max · 0`; the second linear map is a 512-term sum plus its bias.

  `layerAt` is the whole result array, index by index, as a function of the feature array, the summed
  array, the count array and the four parameter arrays. The one law needed between the two programs is
  that a sum over 256 indices is the sum over the first 128 plus the sum over the last 128 (`sum_split`):
  addition on the extended reals is commutative and associative, so no finiteness is used.
-/
import Idealize.ShloMosaic.PureOps.Ideal
import Idealize.ShloMosaic.PureOps.Ideal.Laws
import Idealize.ShloMosaic.Lib.ValueIdx
import Mathlib.Algebra.BigOperators.Fin

noncomputable section

namespace Cert.SageLayer

open Idealize.ShloMosaic Idealize.ShloMosaic.ValueIdx

/-- The f32 words of `1.0` and `0.0`, as the extended reals they denote (never evaluated: both programs
    print the same words). -/
abbrev one : EReal := Ideal.ofBits .f32 0x3F800000#32
abbrev zero : EReal := Ideal.ofBits .f32 0x00000000#32

/-- The mean of one feature over a node's neighbours: the summed feature over the neighbour count, a node
    without neighbours dividing by one. -/
def nbrMean (s cn : EReal) : EReal := Ideal.div s (max cn one)

/-- Hidden unit `j` of a node: the node's row through the upper half of the first matrix, plus its
    neighbour-mean row through the lower half, plus the bias, rectified. -/
def hidden (xr sr : Fin 128 → EReal) (cn : EReal) (wa wb : Fin 128 → Fin 512 → EReal) (b1 : Fin 512 → EReal)
    (j : Fin 512) : EReal :=
  max (((∑ k : Fin 128, xr k * wa k j) + ∑ k : Fin 128, nbrMean (sr k) cn * wb k j) + b1 j) zero

/-- Output unit `o` of a node from its hidden row: the second linear map and its bias. -/
def outUnit (h : Fin 512 → EReal) (w2 : Fin 512 → Fin 128 → EReal) (b2 : Fin 128 → EReal) (o : Fin 128) : EReal :=
  (∑ j : Fin 512, h j * w2 j o) + b2 o

/-- Row `k` of the upper half of a 256-row index range, and of the lower half. -/
abbrev upper (k : Fin 128) : Fin 256 := ⟨k.val, by omega⟩
abbrev lower (k : Fin 128) : Fin 256 := ⟨128 + k.val, by omega⟩

/-- The layer's result at node `r`, output unit `o`, from the feature array `x`, the summed-neighbour array `s`,
    the neighbour counts `cnt`, and the parameters. -/
def layerAt (x s : (⟨2, ![10000, 128]⟩ : Shape).Idx → EReal) (cnt : (⟨1, ![10000]⟩ : Shape).Idx → EReal)
    (w1 : (⟨2, ![256, 512]⟩ : Shape).Idx → EReal) (b1 : (⟨1, ![512]⟩ : Shape).Idx → EReal)
    (w2 : (⟨2, ![512, 128]⟩ : Shape).Idx → EReal) (b2 : (⟨1, ![128]⟩ : Shape).Idx → EReal)
    (r : Fin 10000) (o : Fin 128) : EReal :=
  outUnit (hidden (fun k => x (ix2 r k)) (fun k => s (ix2 r k)) (cnt (ix1 r))
      (fun k j => w1 (ix2 (upper k) j)) (fun k j => w1 (ix2 (lower k) j)) (fun j => b1 (ix1 j)))
    (fun j o => w2 (ix2 j o)) (fun o => b2 (ix1 o)) o

/-- The result array. -/
def layer (x s : (⟨2, ![10000, 128]⟩ : Shape).Idx → EReal) (cnt : (⟨1, ![10000]⟩ : Shape).Idx → EReal)
    (w1 : (⟨2, ![256, 512]⟩ : Shape).Idx → EReal) (b1 : (⟨1, ![512]⟩ : Shape).Idx → EReal)
    (w2 : (⟨2, ![512, 128]⟩ : Shape).Idx → EReal) (b2 : (⟨1, ![128]⟩ : Shape).Idx → EReal) :
    (⟨2, ![10000, 128]⟩ : Shape).Idx → EReal :=
  fun i => layerAt x s cnt w1 b1 w2 b2 (i 0) (i 1)

/-- A sum over 256 indices is the sum over the first 128 plus the sum over the last 128. -/
theorem sum_split (f : Fin 256 → EReal) :
    ∑ k : Fin 256, f k = (∑ k : Fin 128, f (upper k)) + ∑ k : Fin 128, f (lower k) :=
  Fin.sum_univ_add (M := EReal) (a := 128) (b := 128) f

end Cert.SageLayer

end
-- ==== Proof.KernelEntry.lean ====
/-
  What the kernel's pipelined region finds in its eight input arrays: each is a plain function of @main's arguments.

  The host lines before the region split the edge list into destination and source node per edge, gather the source
  rows of the feature array (a negative source counted from the end), add them into their destination rows
  (`summed`), add a one per edge into its destination (`counts`, then viewed as a column), cut the first matrix into
  its upper and lower 128 rows, narrow the three matrices' format, and view the two biases as one-row arrays. The
  gather and the two scatter-adds are kept whole: which rows they touch depends on the edge list.

  Stated for any float instance (the reading of the host lines is the same at each), then read at an index at the
  ideal one, where a change of format is the identity.
-/
import proofs.«130643_j2319282339967_2_alg».proof.Proof.Gen.KernelIdeal.Frame
import proofs.«130643_j2319282339967_2_alg».proof.Proof.LayerSpec
import Idealize.ShloMosaic.Lib.StableHlo.Run
import Idealize.ShloMosaic.Lib.Pipeline.Value
import Idealize.ShloMosaic.Lib.ValueIdx

noncomputable section

namespace Cert.SageLayer.Kernel

open Cert.KernelIdeal Cert.KernelIdeal.Gen Idealize.ShloMosaic Idealize.ShloMosaic.TcCoe Idealize.SL.Sem
open Idealize.ShloMosaic.StableHlo Idealize.ShloMosaic.ValueIdx

section AnyInstance
variable {F : FTy → Type} [FloatOps F]

/-- The destination node of each edge: row 0 of the edge list. -/
def dst (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The source node of each edge: row 1 of the edge list. -/
def src (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The source node with a negative index counted from the end of the node range. -/
def srcWrapped (e : (⟨S2x640000, .i32⟩ : BufTy).Contents (Elt F)) : (⟨S640000, .i32⟩ : BufTy).Contents (Elt F) :=
  select (cmpi .slt (src (F := F) e) (broadcastInDim S640000 ![] bcast_S_S640000 (constantI S_ 32 0#32)))
    (addi (src (F := F) e) (broadcastInDim S640000 ![] bcast_S_S640000 (constantI S_ 32 10000#32))) (src (F := F) e)

/-- Per node, the sum of its in-neighbours' feature rows: the gathered source rows added into their destinations. -/
def summed (x : (⟨S10000x128, .f32⟩ : BufTy).Contents (Elt F)) (e : (⟨S2x640000, .i32⟩ : BufTy).Contents (Elt F)) :
    (⟨S10000x128, .f32⟩ : BufTy).Contents (Elt F) :=
  Host.scatterAdd scatter_S10000x128_S640000x1_S640000x128_1_0_0_1
    (broadcastInDim S10000x128 ![] bcast_S_S10000x128 (constant S_ .f32 0x00000000#32))
    (broadcastInDim S640000x1 ![0] bcast_S640000_S640000x1_0 (dst (F := F) e))
    (Host.gather gather_S10000x128_S640000x1_S640000x128_1_0_n_n_0_1_1128 x
      (broadcastInDim S640000x1 ![0] bcast_S640000_S640000x1_0 (srcWrapped (F := F) e)))

/-- Per node, the number of its in-neighbours: a one per edge added into its destination. -/
def counts (e : (⟨S2x640000, .i32⟩ : BufTy).Contents (Elt F)) : (⟨S10000, .f32⟩ : BufTy).Contents (Elt F) :=
  Host.scatterAdd scatter_S10000_S640000x1_S640000_n_0_0_1
    (broadcastInDim S10000 ![] bcast_S_S10000 (constant S_ .f32 0x00000000#32))
    (broadcastInDim S640000x1 ![0] bcast_S640000_S640000x1_0 (dst (F := F) e))
    (broadcastInDim S640000 ![] bcast_S_S640000 (constant S_ .f32 0x3F800000#32))

variable (m : (ℓ : Loc nD τ sig) → Buf (Elt F) ℓ)

/-- The summed-neighbour array the region stages through window 1. -/
theorem entry_summed (c : Dev nD) :
    V m c main_v13 = summed (F := F) (m ((c : Thread nD τ).loc main_arg0)) (m ((c : Thread nD τ).loc main_arg1)) := by
  dsimp only [V, hostOps0]
  after_results_simp <;> rfl

/-- The neighbour counts, as the column window 2 stages. -/
theorem entry_counts (c : Dev nD) :
    V m c main_v18 = shapeCast _ (counts (F := F) (m ((c : Thread nD τ).loc main_arg1))) shapeCasts_S10000_S10000x1 := by
  dsimp only [V, hostOps0]
  after_results_simp <;> rfl

/-- The upper 128 rows of the first matrix, in the narrow format (window 3). -/
theorem entry_w1_upper (c : Dev nD) :
    V m c main_v20 = truncf .bf16 (extractStridedSlice S128x512 ![0, 0] (m ((c : Thread nD τ).loc main_arg2))
      slices_S256x512_S128x512_0_0) bitsLt_bf16_f32 := by
  dsimp only [V, hostOps0]
  after_results_simp <;> rfl

/-- The lower 128 rows of the first matrix, in the narrow format (window 4). -/
theorem entry_w1_lower (c : Dev nD) :
    V m c main_v22 = truncf .bf16 (extractStridedSlice S128x512 ![128, 0] (m ((c : Thread nD τ).loc main_arg2))
      slices_S256x512_S128x512_128_0) bitsLt_bf16_f32 := by
  dsimp only [V, hostOps0]
  after_results_simp <;> rfl

/-- The second matrix in the narrow format (window 6). -/
theorem entry_w2 (c : Dev nD) :
    V m c main_v23 = truncf .bf16 (m ((c : Thread nD τ).loc main_arg4)) bitsLt_bf16_f32 := by
  dsimp only [V, hostOps0]
  after_results_simp <;> rfl

/-- The first bias as a one-row array (window 5). -/
theorem entry_b1 (c : Dev nD) :
    V m c main_v24 = shapeCast _ (m ((c : Thread nD τ).loc main_arg3)) shapeCasts_S512_S1x512 := by
  dsimp only [V, hostOps0]
  after_results_simp <;> rfl

/-- The second bias as a one-row array (window 7). -/
theorem entry_b2 (c : Dev nD) :
    V m c main_v25 = shapeCast _ (m ((c : Thread nD τ).loc main_arg5)) shapeCasts_S128_S1x128 := by
  dsimp only [V, hostOps0]
  after_results_simp <;> rfl

end AnyInstance

end Cert.SageLayer.Kernel

end
-- ==== Proof.KernelBlocks.lean ====
/-
  Each input window's block at grid point `t`, as entries of @main's arguments.

  The grid has ten points; point `t` takes rows `1000 t … 1000 t + 999` of the three node-indexed arrays (features,
  summed neighbours, the count column) and the whole of each parameter array. So an entry of a node-indexed block at
  block row `p` is the array's entry at row `1000 t + p`, and an entry of a parameter block is the array's entry at the
  same index. The arrays themselves are the host prefix's functions of the arguments (KernelEntry), read here at an
  index: the count column at its row, the two halves of the first matrix at rows `k` and `128 + k`, a one-row bias at
  its column; the narrowing of a format is the identity at the ideal values.
-/
import proofs.«130643_j2319282339967_2_alg».proof.Proof.KernelEntry

noncomputable section

namespace Cert.SageLayer.Kernel

open Cert.KernelIdeal Cert.KernelIdeal.Gen Idealize.ShloMosaic Idealize.ShloMosaic.TcCoe Idealize.SL.Sem
open Idealize.ShloMosaic.ValueIdx Cert.SageLayer

/-- The printed index maps over the ten grid points: the three node-indexed inputs and the output move down one block
    of rows per point, the five parameter windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

section AnyInstance
variable {F : FTy → Type} [FloatOps F]

/-! ## A window's block read through ANY contents of its array -/

theorem read_block0 (A : S10000x128.Idx → Elt F .f32) (t : Fin cfg0.N) (y : S1000x128.Idx) (i : S10000x128.Idx)
    (h0 : (i 0).val = t.val * 1000 + (y 0).val) (h1 : (i 1).val = (y 1).val) :
    ((cfg0.win 0).blk t).view.read (Elt F) A y = A i := by
  obtain ⟨e0, e1, -⟩ := idx_facts t
  rw [View.read_apply]
  show A _ = A i
  refine congrArg A (funext fun a => Fin.ext ?_)
  match a with
  | ⟨0, _⟩ => show win0_0.index t (0 : Fin 2) * 1000 + 1 * (y 0).val = (i 0).val; omega
  | ⟨1, _⟩ => show win0_0.index t (1 : Fin 2) * 128 + 1 * (y 1).val = (i 1).val; omega

theorem read_block1 (A : S10000x128.Idx → Elt F .f32) (t : Fin cfg0.N) (y : S1000x128.Idx) (i : S10000x128.Idx)
    (h0 : (i 0).val = t.val * 1000 + (y 0).val) (h1 : (i 1).val = (y 1).val) :
    ((cfg0.win 1).blk t).view.read (Elt F) A y = A i := by
  obtain ⟨-, -, e0, e1, -⟩ := idx_facts t
  rw [View.read_apply]
  show A _ = A i
  refine congrArg A (funext fun a => Fin.ext ?_)
  match a with
  | ⟨0, _⟩ => show win0_1.index t (0 : Fin 2) * 1000 + 1 * (y 0).val = (i 0).val; omega
  | ⟨1, _⟩ => show win0_1.index t (1 : Fin 2) * 128 + 1 * (y 1).val = (i 1).val; omega

theorem read_block2 (A : S10000x1.Idx → Elt F .f32) (t : Fin cfg0.N) (y : S1000x1.Idx) (i : S10000x1.Idx)
    (h0 : (i 0).val = t.val * 1000 + (y 0).val) (h1 : (i 1).val = (y 1).val) :
    ((cfg0.win 2).blk t).view.read (Elt F) A y = A i := by
  obtain ⟨-, -, -, -, e0, e1, -⟩ := idx_facts t
  rw [View.read_apply]
  show A _ = A i
  refine congrArg A (funext fun a => Fin.ext ?_)
  match a with
  | ⟨0, _⟩ => show win0_2.index t (0 : Fin 2) * 1000 + 1 * (y 0).val = (i 0).val; omega
  | ⟨1, _⟩ => show win0_2.index t (1 : Fin 2) * 1 + 1 * (y 1).val = (i 1).val; omega

theorem read_block3 (A : S128x512.Idx → Elt F .bf16) (t : Fin cfg0.N) (y : S128x512.Idx) :
    ((cfg0.win 3).blk t).view.read (Elt F) A y = A y := by
  obtain ⟨-, -, -, -, -, -, e0, e1, -⟩ := idx_facts t
  rw [View.read_apply]
  show A _ = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

theorem read_block4 (A : S128x512.Idx → Elt F .bf16) (t : Fin cfg0.N) (y : S128x512.Idx) :
    ((cfg0.win 4).blk t).view.read (Elt F) A y = A y := by
  obtain ⟨-, -, -, -, -, -, -, -, e0, e1, -⟩ := idx_facts t
  rw [View.read_apply]
  show A _ = A y
  refine congrArg A (funext fun a => Fin.ext ?_)
  match a with
  | ⟨0, _⟩ => show win0_4.index t (0 : Fin 2) * 128 + 1 * (y 0).val = (y 0).val; omega
  | ⟨1, _⟩ => show win0_4.index t (1 : Fin 2) * 512 + 1 * (y 1).val = (y 1).val; omega

theorem read_block5 (A : S1x512.Idx → Elt F .f32) (t : Fin cfg0.N) (y : S1x512.Idx) :
    ((cfg0.win 5).blk t).view.read (Elt F) A y = A y := by
  obtain ⟨-, -, -, -, -, -, -, -, -, -, e0, e1, -⟩ := idx_facts t
  rw [View.read_apply]
  show A _ = A y
  refine congrArg A (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem read_block6 (A : S512x128.Idx → Elt F .bf16) (t : Fin cfg0.N) (y : S512x128.Idx) :
    ((cfg0.win 6).blk t).view.read (Elt F) A y = A y := by
  obtain ⟨-, -, -, -, -, -, -, -, -, -, -, -, e0, e1, -⟩ := idx_facts t
  rw [View.read_apply]
  show A _ = A y
  refine congrArg A (funext fun a => Fin.ext ?_)
  match a with
  | ⟨0, _⟩ => show win0_6.index t (0 : Fin 2) * 512 + 1 * (y 0).val = (y 0).val; omega
  | ⟨1, _⟩ => show win0_6.index t (1 : Fin 2) * 128 + 1 * (y 1).val = (y 1).val; omega

theorem read_block7 (A : S1x128.Idx → Elt F .f32) (t : Fin cfg0.N) (y : S1x128.Idx) :
    ((cfg0.win 7).blk t).view.read (Elt F) A y = A y := by
  obtain ⟨-, -, -, -, -, -, -, -, -, -, -, -, -, -, e0, e1, -⟩ := idx_facts t
  rw [View.read_apply]
  show A _ = A y
  refine congrArg A (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

end AnyInstance

/-! ## The blocks at the ideal values, as entries of the arguments -/

variable (m : (ℓ : Loc nD τ sig) → Buf (Elt Ideal) ℓ)

/-- The feature block: block row `p` is node `r = 1000 t + p`. -/
theorem block_features (c : Dev nD) (t : Fin cfg0.N) (p : Fin 1000) (r : Fin 10000) (hr : r.val = t.val * 1000 + p.val)
    (k : Fin 128) :
    (iblk m c 0 t : Vec Ideal S1000x128 .f32) (ix2 p k)
      = (m ((c : Thread nD τ).loc main_arg0) : S10000x128.Idx → EReal) (ix2 r k) := by
  unfold iblk
  exact (read_block0 (V m c main_arg0) t (ix2 p k) (ix2 r k) hr rfl).trans (congrFun (V_main_arg0 m c) _)

/-- The summed-neighbour block: block row `p` is node `r = 1000 t + p`. -/
theorem block_summed (c : Dev nD) (t : Fin cfg0.N) (p : Fin 1000) (r : Fin 10000) (hr : r.val = t.val * 1000 + p.val)
    (k : Fin 128) :
    (iblk m c 1 t : Vec Ideal S1000x128 .f32) (ix2 p k)
      = summed (F := Ideal) (m ((c : Thread nD τ).loc main_arg0)) (m ((c : Thread nD τ).loc main_arg1)) (ix2 r k) := by
  unfold iblk
  exact (read_block1 (V m c main_v13) t (ix2 p k) (ix2 r k) hr rfl).trans (congrFun (entry_summed m c) _)

/-- The count block: its one column at block row `p` is the neighbour count of node `r = 1000 t + p`. -/
theorem block_counts (c : Dev nD) (t : Fin cfg0.N) (p : Fin 1000) (r : Fin 10000) (hr : r.val = t.val * 1000 + p.val) :
    (iblk m c 2 t : Vec Ideal S1000x1 .f32) (ix2 p 0)
      = counts (F := Ideal) (m ((c : Thread nD τ).loc main_arg1)) (ix1 r) := by
  unfold iblk
  refine (read_block2 (V m c main_v18) t (ix2 p 0) (ix2 r 0) hr rfl).trans ?_
  rw [entry_counts]
  exact shapeCast_apply _ shapeCasts_S10000_S10000x1 (ix2 r 0) (ix1 r)
    (by rewrite [Shape.rowMajor_val_two, Shape.rowMajor_val_one]; show r.val = r.val * 1 + 0; omega)

/-- The upper-half block of the first matrix: row `k` of the matrix. -/
theorem block_w1_upper (c : Dev nD) (t : Fin cfg0.N) (k : Fin 128) (j : Fin 512) :
    (iblk m c 3 t : Vec Ideal S128x512 .bf16) (ix2 k j)
      = (m ((c : Thread nD τ).loc main_arg2) : S256x512.Idx → EReal) (ix2 (upper k) j) := by
  unfold iblk
  refine (read_block3 (V m c main_v20) t (ix2 k j)).trans ?_
  rw [entry_w1_upper]
  refine (truncf_apply _ bitsLt_bf16_f32 (ix2 k j)).trans ?_
  exact extractStridedSlice_apply ![0, 0] _ slices_S256x512_S128x512_0_0 (ix2 k j) (ix2 (upper k) j) (fun a => match a with
    | ⟨0, _⟩ => by show k.val = 0 + k.val; omega
    | ⟨1, _⟩ => by show j.val = 0 + j.val; omega)

/-- The lower-half block of the first matrix: row `128 + k` of the matrix. -/
theorem block_w1_lower (c : Dev nD) (t : Fin cfg0.N) (k : Fin 128) (j : Fin 512) :
    (iblk m c 4 t : Vec Ideal S128x512 .bf16) (ix2 k j)
      = (m ((c : Thread nD τ).loc main_arg2) : S256x512.Idx → EReal) (ix2 (lower k) j) := by
  unfold iblk
  refine (read_block4 (V m c main_v22) t (ix2 k j)).trans ?_
  rw [entry_w1_lower]
  refine (truncf_apply _ bitsLt_bf16_f32 (ix2 k j)).trans ?_
  exact extractStridedSlice_apply ![128, 0] _ slices_S256x512_S128x512_128_0 (ix2 k j) (ix2 (lower k) j) (fun a => match a with
    | ⟨0, _⟩ => by show 128 + k.val = 128 + k.val; rfl
    | ⟨1, _⟩ => by show j.val = 0 + j.val; omega)

/-- The first bias block: its one row at column `j`. -/
theorem block_b1 (c : Dev nD) (t : Fin cfg0.N) (j : Fin 512) :
    (iblk m c 5 t : Vec Ideal S1x512 .f32) (ix2 0 j)
      = (m ((c : Thread nD τ).loc main_arg3) : S512.Idx → EReal) (ix1 j) := by
  unfold iblk
  refine (read_block5 (V m c main_v24) t (ix2 0 j)).trans ?_
  rw [entry_b1]
  exact shapeCast_apply _ shapeCasts_S512_S1x512 (ix2 0 j) (ix1 j)
    (by rewrite [Shape.rowMajor_val_two, Shape.rowMajor_val_one]; show j.val = 0 * 512 + j.val; omega)

/-- The second matrix's block is the matrix. -/
theorem block_w2 (c : Dev nD) (t : Fin cfg0.N) (j : Fin 512) (o : Fin 128) :
    (iblk m c 6 t : Vec Ideal S512x128 .bf16) (ix2 j o)
      = (m ((c : Thread nD τ).loc main_arg4) : S512x128.Idx → EReal) (ix2 j o) := by
  unfold iblk
  refine (read_block6 (V m c main_v23) t (ix2 j o)).trans ?_
  rw [entry_w2]
  exact truncf_apply _ bitsLt_bf16_f32 (ix2 j o)

/-- The second bias block: its one row at column `o`. -/
theorem block_b2 (c : Dev nD) (t : Fin cfg0.N) (o : Fin 128) :
    (iblk m c 7 t : Vec Ideal S1x128 .f32) (ix2 0 o)
      = (m ((c : Thread nD τ).loc main_arg5) : S128.Idx → EReal) (ix1 o) := by
  unfold iblk
  refine (read_block7 (V m c main_v25) t (ix2 0 o)).trans ?_
  rw [entry_b2]
  exact shapeCast_apply _ shapeCasts_S128_S1x128 (ix2 0 o) (ix1 o)
    (by rewrite [Shape.rowMajor_val_two, Shape.rowMajor_val_one]; show o.val = 0 * 128 + o.val; omega)

end Cert.SageLayer.Kernel

end
-- ==== Proof.KernelRow.lean ====
/-
  The kernel body's arithmetic at an index. For a block of 1000 nodes the body computes, at node `p` of the block and
  output unit `o`, exactly LayerSpec's `outUnit (hidden …)` of that node's rows of the three node-indexed blocks and of
  the five parameter blocks: each of the three matrix products into a zero accumulator is a plain sum over the
  contracted index, the narrowing of a format is the identity, the count column is read at the node's row, and a
  one-row bias is read at the unit's column.
-/
import proofs.«130643_j2319282339967_2_alg».proof.Proof.Gen.KernelIdeal.Skeleton
import proofs.«130643_j2319282339967_2_alg».proof.Proof.LayerSpec
import Idealize.ShloMosaic.Lib.Pipeline.Value
import Idealize.ShloMosaic.Lib.ValueIdx
import Idealize.ShloMosaic.PureOps.Ideal.Laws

noncomputable section

namespace Cert.SageLayer.Kernel

open Cert.KernelIdeal Cert.KernelIdeal.Gen Idealize.ShloMosaic Idealize.ShloMosaic.ValueIdx
open Cert.SageLayer

/-! ## The two shapes of matrix product, each a sum over its contracted index -/

theorem first_lhs_0 (i : S1000x512.Idx) (q : dot_S1000x128_S128x512_S1000x512_1_0_0_1_n_n.contr.Idx) :
    (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide),
    dif_pos (show (0 : Fin S1000x128.rank) ∈ dot_S1000x128_S128x512_S1000x512_1_0_0_1_n_n.lhsNonContracting by decide)]
  rfl
theorem first_lhs_1 (i : S1000x512.Idx) (q : dot_S1000x128_S128x512_S1000x512_1_0_0_1_n_n.contr.Idx) :
    (dot_S1000x128_S128x512_S1000x512_1_0_0_1_n_n.lhsIdx i q 1).val = (q ⟨0, by decide⟩).val :=
  dot_S1000x128_S128x512_S1000x512_1_0_0_1_n_n.lhsIdx_val_of_single rfl i q
theorem first_rhs_0 (i : S1000x512.Idx) (q : dot_S1000x128_S128x512_S1000x512_1_0_0_1_n_n.contr.Idx) :
    (dot_S1000x128_S128x512_S1000x512_1_0_0_1_n_n.rhsIdx i q 0).val = (q ⟨0, by decide⟩).val :=
  dot_S1000x128_S128x512_S1000x512_1_0_0_1_n_n.rhsIdx_val_of_single rfl i q
theorem first_rhs_1 (i : S1000x512.Idx) (q : dot_S1000x128_S128x512_S1000x512_1_0_0_1_n_n.contr.Idx) :
    (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide),
    dif_pos (show (1 : Fin S128x512.rank) ∈ dot_S1000x128_S128x512_S1000x512_1_0_0_1_n_n.rhsNonContracting by decide)]
  rfl

/-- A 1000 × 128 block times a 128 × 512 matrix into a zero accumulator, at (node, hidden unit): the sum over the 128
    contracted indices. -/
theorem first_product_apply (l : FVec Ideal S1000x128 .bf16) (r : FVec Ideal S128x512 .bf16) (p : Fin 1000) (j : Fin 512) :
    matmul dot_S1000x128_S128x512_S1000x512_1_0_0_1_n_n none l r (constant (F := Ideal) S1000x512 .f32 0x00000000#32) (ix2 p j)
      = ∑ k : Fin 128, l (ix2 p k) * r (ix2 k j) := by
  simp only [matmul]
  rw [Ideal.matmul_constant_zero_apply,
    ← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx (ix2 p j)
      ((ValueIdx.contrEquiv1 dot_S1000x128_S128x512_S1000x512_1_0_0_1_n_n 128 rfl rfl).symm k) = ix2 p k :=
    funext fun a => Fin.ext (by
      match a with
      | ⟨0, _⟩ => exact first_lhs_0 _ _
      | ⟨1, _⟩ => exact (first_lhs_1 _ _).trans hk)
  have er : dot_S1000x128_S128x512_S1000x512_1_0_0_1_n_n.rhsIdx (ix2 p j)
      ((ValueIdx.contrEquiv1 dot_S1000x128_S128x512_S1000x512_1_0_0_1_n_n 128 rfl rfl).symm k) = ix2 k j :=
    funext fun a => Fin.ext (by
      match a with
      | ⟨0, _⟩ => exact (first_rhs_0 _ _).trans hk
      | ⟨1, _⟩ => exact first_rhs_1 _ _)
  rw [el, er]

theorem second_lhs_0 (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide),
    dif_pos (show (0 : Fin S1000x512.rank) ∈ dot_S1000x512_S512x128_S1000x128_1_0_0_1_n_n.lhsNonContracting by decide)]
  rfl
theorem second_lhs_1 (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
theorem second_rhs_0 (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
theorem second_rhs_1 (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide),
    dif_pos (show (1 : Fin S512x128.rank) ∈ dot_S1000x512_S512x128_S1000x128_1_0_0_1_n_n.rhsNonContracting by decide)]
  rfl

/-- A 1000 × 512 block times a 512 × 128 matrix into a zero accumulator, at (node, output unit): the sum over the 512
    contracted indices. -/
theorem second_product_apply (l : FVec Ideal S1000x512 .bf16) (r : FVec Ideal S512x128 .bf16) (p : Fin 1000) (o : Fin 128) :
    matmul dot_S1000x512_S512x128_S1000x128_1_0_0_1_n_n none l r (constant (F := Ideal) S1000x128 .f32 0x00000000#32) (ix2 p o)
      = ∑ j : Fin 512, l (ix2 p j) * r (ix2 j o) := by
  simp only [matmul]
  rw [Ideal.matmul_constant_zero_apply,
    ← Equiv.sum_comp (ValueIdx.contrEquiv1 dot_S1000x512_S512x128_S1000x128_1_0_0_1_n_n 512 rfl rfl).symm]
  refine Finset.sum_congr rfl fun k _ => ?_
  have hk := ValueIdx.contrEquiv1_symm_val dot_S1000x512_S512x128_S1000x128_1_0_0_1_n_n 512 rfl rfl k
  have el : dot_S1000x512_S512x128_S1000x128_1_0_0_1_n_n.lhsIdx (ix2 p o)
      ((ValueIdx.contrEquiv1 dot_S1000x512_S512x128_S1000x128_1_0_0_1_n_n 512 rfl rfl).symm k) = ix2 p k :=
    funext fun a => Fin.ext (by
      match a with
      | ⟨0, _⟩ => exact second_lhs_0 _ _
      | ⟨1, _⟩ => exact (second_lhs_1 _ _).trans hk)
  have er : dot_S1000x512_S512x128_S1000x128_1_0_0_1_n_n.rhsIdx (ix2 p o)
      ((ValueIdx.contrEquiv1 dot_S1000x512_S512x128_S1000x128_1_0_0_1_n_n 512 rfl rfl).symm k) = ix2 k o :=
    funext fun a => Fin.ext (by
      match a with
      | ⟨0, _⟩ => exact (second_rhs_0 _ _).trans hk
      | ⟨1, _⟩ => exact second_rhs_1 _ _)
  rw [el, er]

/-! ## The broadcasts: a column along its rows, a one-row array down the nodes -/

/-- A 1000 × 1 column spread over 128 columns reads, at (node, any column), the column's entry of that node. -/
theorem column_spread_apply (v : FVec Ideal S1000x1 .f32) (p : Fin 1000) (k : Fin 128) :
    broadcastTo S1000x128 v broadcasts_S1000x1_S1000x128 (ix2 p k) = v (ix2 p 0) :=
  broadcastTo_apply v broadcasts_S1000x1_S1000x128 (ix2 p k) (ix2 p 0) (fun a => match a with
    | ⟨0, _⟩ => by show _ = if (1000 : Nat) = 1 then 0 else _; rw [if_neg (by decide)]; rfl
    | ⟨1, _⟩ => by show _ = if (1 : Nat) = 1 then 0 else _; rw [if_pos rfl]; rfl)

/-- A 1 × 512 row spread down 1000 nodes reads, at (any node, hidden unit), the row's entry of that unit. -/
theorem bias1_spread_apply (v : FVec Ideal S1x512 .f32) (p : Fin 1000) (j : Fin 512) :
    broadcastTo S1000x512 v broadcasts_S1x512_S1000x512 (ix2 p j) = v (ix2 0 j) :=
  broadcastTo_apply v broadcasts_S1x512_S1000x512 (ix2 p j) (ix2 0 j) (fun a => match a with
    | ⟨0, _⟩ => by show _ = if (1 : Nat) = 1 then 0 else _; rw [if_pos rfl]; rfl
    | ⟨1, _⟩ => by show _ = if (512 : Nat) = 1 then 0 else _; rw [if_neg (by decide)]; rfl)

/-- A 1 × 128 row spread down 1000 nodes reads, at (any node, output unit), the row's entry of that unit. -/
theorem bias2_spread_apply (v : FVec Ideal S1x128 .f32) (p : Fin 1000) (o : Fin 128) :
    broadcastTo S1000x128 v broadcasts_S1x128_S1000x128 (ix2 p o) = v (ix2 0 o) :=
  broadcastTo_apply v broadcasts_S1x128_S1000x128 (ix2 p o) (ix2 0 o) (fun a => match a with
    | ⟨0, _⟩ => by show _ = if (1 : Nat) = 1 then 0 else _; rw [if_pos rfl]; rfl
    | ⟨1, _⟩ => by show _ = if (128 : Nat) = 1 then 0 else _; rw [if_neg (by decide)]; rfl)

/-! ## The body's result at (node of the block, output unit) -/

/-- What the body stores, at node `p` of the block and output unit `o`, is the layer's output unit of that node's rows. -/
theorem payload_apply (v0 v6 : Vec Ideal S1000x128 .f32) (v2 : Vec Ideal S1000x1 .f32) (v11 v13 : Vec Ideal S128x512 .bf16)
    (v18 : Vec Ideal S1x512 .f32) (v25 : Vec Ideal S512x128 .bf16) (v28 : Vec Ideal S1x128 .f32) (p : Fin 1000) (o : Fin 128) :
    k0_pay1 (F := Ideal) v0 v2 v6 v11 v13 v18 v25 v28 (ix2 p o)
      = outUnit (hidden (fun k => v0 (ix2 p k)) (fun k => v6 (ix2 p k)) (v2 (ix2 p 0)) (fun k j => v11 (ix2 k j))
          (fun k j => v13 (ix2 k j)) (fun j => v18 (ix2 0 j))) (fun j o => v25 (ix2 j o)) (fun o => v28 (ix2 0 o)) o := by
  unfold k0_pay1
  simp only [addf_apply, second_product_apply, shapeCast_self, bias2_spread_apply, truncf_apply, maximumf_apply,
    first_product_apply, bias1_spread_apply, divf_apply, column_spread_apply, broadcast_apply]
  rfl

end Cert.SageLayer.Kernel

end
-- ==== Proof.KernelArray.lean ====
/-
  The kernel's result array is the layer of @main's arguments.

  At grid point `t` the body's result block, read at block row `p` and column `o`, is the layer at node `1000 t + p`
  and output unit `o`: the body's arithmetic at an index (KernelRow) over the blocks' entries (KernelBlocks). That is
  block `t` of the layer's array read through the output window; the ten blocks cover the 10000 rows (row `r` lies
  in block `r / 1000`), so after the run the output array holds the layer everywhere.
-/
import proofs.«130643_j2319282339967_2_alg».proof.Proof.Gen.KernelIdeal.Value
import proofs.«130643_j2319282339967_2_alg».proof.Proof.KernelBlocks
import proofs.«130643_j2319282339967_2_alg».proof.Proof.KernelRow

noncomputable section

namespace Cert.SageLayer.Kernel

open Cert.KernelIdeal Cert.KernelIdeal.Gen Idealize.ShloMosaic Idealize.ShloMosaic.TcCoe Idealize.SL.Sem
open Idealize.ShloMosaic.Pipeline (Dat)
open Idealize.ShloMosaic.ValueIdx Cert.SageLayer

theorem hz : (![0, 0] : Fin 2 → Nat) = fun _ => 0 := funext fun a => by fin_cases a <;> rfl

/-- The body's result at (block row, output unit) from blocks whose entries are entries of seven arrays: the layer of
    those arrays at the node the block row stands for. -/
theorem block_value (x0 x1 : Vec Ideal S1000x128 .f32) (x2 : Vec Ideal S1000x1 .f32) (x3 x4 : Vec Ideal S128x512 .bf16)
    (x5 : Vec Ideal S1x512 .f32) (x6 : Vec Ideal S512x128 .bf16) (x7 : Vec Ideal S1x128 .f32)
    (X S : (⟨2, ![10000, 128]⟩ : Shape).Idx → EReal) (cnt : (⟨1, ![10000]⟩ : Shape).Idx → EReal)
    (w1 : (⟨2, ![256, 512]⟩ : Shape).Idx → EReal) (b1 : (⟨1, ![512]⟩ : Shape).Idx → EReal)
    (w2 : (⟨2, ![512, 128]⟩ : Shape).Idx → EReal) (b2 : (⟨1, ![128]⟩ : Shape).Idx → EReal)
    (p : Fin 1000) (r : Fin 10000) (o : Fin 128)
    (h0 : ∀ k : Fin 128, x0 (ix2 p k) = X (ix2 r k)) (h1 : ∀ k : Fin 128, x1 (ix2 p k) = S (ix2 r k))
    (h2 : x2 (ix2 p 0) = cnt (ix1 r))
    (h3 : ∀ (k : Fin 128) (j : Fin 512), x3 (ix2 k j) = w1 (ix2 (upper k) j))
    (h4 : ∀ (k : Fin 128) (j : Fin 512), x4 (ix2 k j) = w1 (ix2 (lower k) j))
    (h5 : ∀ j : Fin 512, x5 (ix2 0 j) = b1 (ix1 j))
    (h6 : ∀ (j : Fin 512) (o : Fin 128), x6 (ix2 j o) = w2 (ix2 j o))
    (h7 : ∀ o : Fin 128, x7 (ix2 0 o) = b2 (ix1 o)) :
    k0_pay1 (F := Ideal) x0 x2 x1 x3 x4 x5 x6 x7 (ix2 p o) = layer X S cnt w1 b1 w2 b2 (ix2 r o) := by
  have e0 : (fun k : Fin 128 => x0 (ix2 p k)) = fun k => X (ix2 r k) := funext h0
  have e1 : (fun k : Fin 128 => x1 (ix2 p k)) = fun k => S (ix2 r k) := funext h1
  have e3 : (fun (k : Fin 128) (j : Fin 512) => x3 (ix2 k j)) = fun k j => w1 (ix2 (upper k) j) := funext fun k => funext (h3 k)
  have e4 : (fun (k : Fin 128) (j : Fin 512) => x4 (ix2 k j)) = fun k j => w1 (ix2 (lower k) j) := funext fun k => funext (h4 k)
  have e5 : (fun j : Fin 512 => x5 (ix2 0 j)) = fun j => b1 (ix1 j) := funext h5
  have e6 : (fun (j : Fin 512) (o : Fin 128) => x6 (ix2 j o)) = fun j o => w2 (ix2 j o) := funext fun j => funext (h6 j)
  have e7 : (fun o : Fin 128 => x7 (ix2 0 o)) = fun o => b2 (ix1 o) := funext h7
  rw [payload_apply, e0, e1, h2, e3, e4, e5, e6, e7]
  rfl

variable (m : (ℓ : Loc nD τ sig) → Buf (Elt Ideal) ℓ) (ρ : Dev nD → PrngReg)

/-- The layer of @main's arguments: features, the summed-neighbour array and the neighbour counts the host lines
    compute from the features and the edge list, and the four parameter arrays. -/
def result (c : Dev nD) : S10000x128.Idx → EReal :=
  layer (m ((c : Thread nD τ).loc main_arg0)) (summed (F := Ideal) (m ((c : Thread nD τ).loc main_arg0)) (m ((c : Thread nD τ).loc main_arg1))) (counts (F := Ideal) (m ((c : Thread nD τ).loc main_arg1))) (m ((c : Thread nD τ).loc main_arg2)) (m ((c : Thread nD τ).loc main_arg3)) (m ((c : Thread nD τ).loc main_arg4)) (m ((c : Thread nD τ).loc main_arg5))

/-- What grid point `t` writes back is block `t` of the layer's array. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S1000x128) hz, View.ld_unit_zero (S := S1000x1) hz, View.ld_unit_zero (S := S128x512) hz,
    View.ld_unit_zero (S := S1x512) hz, View.ld_unit_zero (S := S512x128) hz, View.ld_unit_zero (S := S1x128) hz]
  funext j
  have hj0 : (j 0).val < 1000 := (j 0).isLt
  have hj1 : (j 1).val < 128 := (j 1).isLt
  have ht : t.val < 10 := lt_of_lt_of_eq t.isLt (N_0 : cfg0.N = 10)
  obtain ⟨-, -, -, -, -, -, -, -, -, -, -, -, -, -, -, -, e0, e1⟩ := idx_facts t
  have hr : t.val * 1000 + (j 0).val < 10000 := by omega
  have hx : (cfg0.win 8).xinj (grid0.coords t) j = ix2 (⟨(j 0).val, hj0⟩ : Fin 1000) (⟨(j 1).val, hj1⟩ : Fin 128) :=
    funext fun a => Fin.ext (by match a with | ⟨0, _⟩ => rfl | ⟨1, _⟩ => rfl)
  have he : ((cfg0.win 8).blk t).view.emb j
      = ix2 (⟨t.val * 1000 + (j 0).val, hr⟩ : Fin 10000) (⟨(j 1).val, hj1⟩ : Fin 128) :=
    funext fun a => Fin.ext (by
      match a with
      | ⟨0, _⟩ => show win0_8.index t (0 : Fin 2) * 1000 + 1 * (j 0).val = t.val * 1000 + (j 0).val; omega
      | ⟨1, _⟩ => show win0_8.index t (1 : Fin 2) * 128 + 1 * (j 1).val = (j 1).val; omega)
  show k0_pay1 (F := Ideal) (iblk m c 0 t) (iblk m c 2 t) (iblk m c 1 t) (iblk m c 3 t) (iblk m c 4 t) (iblk m c 5 t)
      (iblk m c 6 t) (iblk m c 7 t) ((cfg0.win 8).xinj (grid0.coords t) j)
    = result m c (((cfg0.win 8).blk t).view.emb j)
  rw [hx, he]
  exact block_value (iblk m c 0 t) (iblk m c 1 t) (iblk m c 2 t) (iblk m c 3 t) (iblk m c 4 t) (iblk m c 5 t)
    (iblk m c 6 t) (iblk m c 7 t) (m ((c : Thread nD τ).loc main_arg0)) (summed (F := Ideal) (m ((c : Thread nD τ).loc main_arg0)) (m ((c : Thread nD τ).loc main_arg1))) (counts (F := Ideal) (m ((c : Thread nD τ).loc main_arg1))) (m ((c : Thread nD τ).loc main_arg2)) (m ((c : Thread nD τ).loc main_arg3)) (m ((c : Thread nD τ).loc main_arg4)) (m ((c : Thread nD τ).loc main_arg5))
    ⟨(j 0).val, hj0⟩ ⟨t.val * 1000 + (j 0).val, hr⟩ ⟨(j 1).val, hj1⟩
    (fun k => block_features m c t _ _ rfl k) (fun k => block_summed m c t _ _ rfl k) (block_counts m c t _ _ rfl)
    (fun k j => block_w1_upper m c t k j) (fun k j => block_w1_lower m c t k j) (fun j => block_b1 m c t j)
    (fun j o => block_w2 m c t j o) (fun o => block_b2 m c t o)

/-- An index of the output array is in point `t`'s block iff each coordinate is in the block's range on its axis. -/
theorem mem_blk (t : Fin cfg0.N) (i : S10000x128.Idx) :
    i ∈ ((cfg0.win 8).blk t).view.set ↔ ∀ a : Fin 2, win0_8.index t a * S1000x128.size a ≤ (i a).val
      ∧ (i a).val < win0_8.index t a * S1000x128.size a + S1000x128.size a := by
  show i ∈ ((View.whole main_v26).slice (win0_8.rect t)).set ↔ _
  rw [View.set_slice_whole, Rect.mem_set_unit]
  exact Iff.rfl

/-- Every index of the output array is in some point's block: row `r` in block `r / 1000`. -/
theorem cover (i : S10000x128.Idx) :
    ∃ t : Fin cfg0.N, (cfg0.win 8).flush t = true ∧ i ∈ ((cfg0.win 8).blk t).view.set := by
  have hi0 : (i 0).val < 10000 := (i 0).isLt
  have hi1 : (i 1).val < 128 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 1000 ≤ (i 0).val ∧ (i 0).val < win0_8.index t (0 : Fin 2) * 1000 + 1000
    omega
  | ⟨1, _⟩ =>
    show win0_8.index t (1 : Fin 2) * 128 ≤ (i 1).val ∧ (i 1).val < win0_8.index t (1 : Fin 2) * 128 + 128
    omega

/-- The output array after the run is the layer of the arguments. -/
theorem final (c : Dev nD) : (dats m 0 c).arrAt 8 cfg0.N = result m c :=
  (dats m 0 c).arrAt_eq_of_cover 8 (result m c) (fun t _ => flushed_eq m c t) cover

/-- The kernel's run: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.SageLayer.Kernel

end
-- ==== Proof.RefLayer.lean ====
/-
  The reference's result, index by index, is the layer of LayerSpec: at node `r` and output unit `o` it is the second
  linear map of the rectified hidden row, and the hidden row's 256-term sum over the row `[x r | mean r]` splits at
  128 into the node's own part (through the upper half of the first matrix) and its neighbour-mean part (through
  the lower half). The summed-neighbour array and the neighbour counts are the reference's own gather / scatter
  stages, kept whole: which rows they add depends on the edge list, and nothing here needs to know.
-/
import proofs.«130643_j2319282339967_2_alg».proof.Proof.Gen.ReferenceIdeal.Read
import proofs.«130643_j2319282339967_2_alg».proof.Proof.LayerSpec

noncomputable section

namespace Cert.SageLayer.Reference

open Cert.ReferenceIdeal Cert.ReferenceIdeal.Gen Cert.ReferenceIdeal.Read Idealize.ShloMosaic Idealize.ShloMosaic.ValueIdx
open Cert.SageLayer

variable (x0 : (⟨S10000x128, .f32⟩ : BufTy).Contents (Elt Ideal)) (x1 : (⟨S2x640000, .i32⟩ : BufTy).Contents (Elt Ideal))
  (x2 : (⟨S256x512, .f32⟩ : BufTy).Contents (Elt Ideal)) (x3 : (⟨S512, .f32⟩ : BufTy).Contents (Elt Ideal))
  (x4 : (⟨S512x128, .f32⟩ : BufTy).Contents (Elt Ideal)) (x5 : (⟨S128, .f32⟩ : BufTy).Contents (Elt Ideal))

/-! ## The operand indices of the two products and of the broadcasts, as coordinates -/

theorem lhs1 (r : Fin 10000) (j : Fin 512) (k : Fin 256) : lidx_main_v24 (ix2 r j) k = ix2 r k :=
  funext fun a => Fin.ext (by match a with | ⟨0, _⟩ => rfl | ⟨1, _⟩ => rfl)
theorem rhs1 (r : Fin 10000) (j : Fin 512) (k : Fin 256) : ridx_main_v24 (ix2 r j) k = ix2 k j :=
  funext fun a => Fin.ext (by match a with | ⟨0, _⟩ => rfl | ⟨1, _⟩ => rfl)
theorem lhs2 (r : Fin 10000) (o : Fin 128) (j : Fin 512) : lidx_main_v29 (ix2 r o) j = ix2 r j :=
  funext fun a => Fin.ext (by match a with | ⟨0, _⟩ => rfl | ⟨1, _⟩ => rfl)
theorem rhs2 (r : Fin 10000) (o : Fin 128) (j : Fin 512) : ridx_main_v29 (ix2 r o) j = ix2 j o :=
  funext fun a => Fin.ext (by match a with | ⟨0, _⟩ => rfl | ⟨1, _⟩ => rfl)
theorem bias1_idx (r : Fin 10000) (j : Fin 512) : idx_main_v25 (idx_main_v26 (ix2 r j)) = ix1 j :=
  funext fun a => Fin.ext (by match a with | ⟨0, _⟩ => rfl)
theorem bias2_idx (r : Fin 10000) (o : Fin 128) : idx_main_v30 (idx_main_v31 (ix2 r o)) = ix1 o :=
  funext fun a => Fin.ext (by match a with | ⟨0, _⟩ => rfl)
theorem count_idx (r : Fin 10000) (k : Fin 128) : idx_main_v20 (idx_main_v21 (ix2 r k)) = ix1 r :=
  funext fun a => Fin.ext (by match a with | ⟨0, _⟩ => rfl)

/-! ## The joined row: the node's own features first, its neighbour means after -/

/-- Column `k` below 128 of the joined row is the node's own feature `k`. -/
theorem joined_upper (r : Fin 10000) (k : Fin 128) :
    val_main_v23 (F := Ideal) x0 x1 (ix2 r (upper k)) = x0 (ix2 r k) := by
  unfold val_main_v23
  exact concatenate_pair_apply_left 1 x0 _ concatenates_S10000x128_S10000x128_S10000x256_d1 _ rfl (ix2 r k)
    (fun b => by match b with | ⟨0, _⟩ => rfl | ⟨1, _⟩ => rfl)

/-- Column `128 + k` of the joined row is the mean of feature `k` over the node's neighbours. -/
theorem joined_lower (r : Fin 10000) (k : Fin 128) :
    val_main_v23 (F := Ideal) x0 x1 (ix2 r (lower k))
      = nbrMean (val_main_v13 (F := Ideal) x0 x1 (ix2 r k)) (val_main_v17 (F := Ideal) x1 (ix1 r)) := by
  unfold val_main_v23
  refine (concatenate_pair_apply_right 1 x0 _ concatenates_S10000x128_S10000x128_S10000x256_d1 _ rfl rfl (ix2 r k)
    (fun b hb => by
      match b with
      | ⟨0, _⟩ => rfl
      | ⟨1, _⟩ => exact absurd rfl hb)
    (by show k.val + 128 = 128 + k.val; omega)).trans ?_
  rw [val_main_v22_apply, val_main_v21_apply, val_main_v20_apply, val_main_v19_apply, val_main_v18_apply,
    val_main_cst_3_apply, count_idx]
  rfl

/-! ## The hidden row and the result -/

/-- Hidden unit `j` of node `r`: the 256-term sum split at 128. -/
theorem hidden_eq (r : Fin 10000) (j : Fin 512) :
    val_main_v28 (F := Ideal) x0 x1 x2 x3 (ix2 r j)
      = hidden (fun k => x0 (ix2 r k)) (fun k => val_main_v13 (F := Ideal) x0 x1 (ix2 r k))
          (val_main_v17 (F := Ideal) x1 (ix1 r)) (fun k j => x2 (ix2 (upper k) j)) (fun k j => x2 (ix2 (lower k) j))
          (fun j => x3 (ix1 j)) j := by
  rw [val_main_v28_apply, val_main_v27_apply, val_main_v24_apply, val_main_v26_apply, val_main_v25_apply,
    val_main_call0_v0_apply, val_main_call0_cst_apply, bias1_idx, sum_split]
  unfold hidden
  refine congrArg₂ max (congrArg₂ (· + ·) (congrArg₂ (· + ·) (Finset.sum_congr rfl fun k _ => ?_)
    (Finset.sum_congr rfl fun k _ => ?_)) rfl) rfl
  · rw [lhs1, rhs1, joined_upper]
  · rw [lhs1, rhs1, joined_lower]

/-- The reference's result array is the layer of its arguments, its summed-neighbour array and its neighbour counts. -/
theorem result_eq :
    val_main_v32 (F := Ideal) x0 x1 x2 x3 x4 x5
      = layer x0 (val_main_v13 (F := Ideal) x0 x1) (val_main_v17 (F := Ideal) x1) x2 x3 x4 x5 := by
  funext i
  obtain ⟨r, o, rfl⟩ : ∃ (r : Fin 10000) (o : Fin 128), i = ix2 r o := ⟨i 0, i 1, eq_ix2 i⟩
  rw [val_main_v32_apply, val_main_v29_apply, val_main_v31_apply, val_main_v30_apply, bias2_idx]
  unfold layer layerAt outUnit
  refine congrArg₂ (· + ·) (Finset.sum_congr rfl fun j _ => ?_) rfl
  rw [lhs2, rhs2, hidden_eq]

end Cert.SageLayer.Reference

end
-- ==== Proof.lean ====
/-
  A graph layer: every node's feature row is joined with the mean of its in-neighbours' feature rows, the joined row
  goes through a linear map with bias, a rectifier, and a second linear map with bias.

  The kernel program and the reference compute the per-node neighbour sums and neighbour counts by the same host
  lines (a gather of the source rows and two scatter-adds into the destinations). They differ after that. The
  reference divides the sums by `max count 1`, joins `[x | mean]` into 256 columns and multiplies by the whole 256 × 512
  matrix. The kernel, block of 1000 nodes by block, divides inside its body and multiplies the two 128-column halves
  by the upper and lower 128 rows of the matrix, adding the two products. Over the extended reals the two are one
  function: a sum over 256 indices is the sum over the first 128 plus the sum over the last 128 (LayerSpec
  `sum_split`; commutativity and associativity of addition only, so the inputs' finiteness is never used), a change
  of float format is the identity, and a matrix product into a zero accumulator is the plain sum.

  RefLayer: the reference's result term is `layer` of its arguments. KernelEntry, KernelBlocks, KernelRow, KernelArray:
  the kernel's result array after the run is `layer` of its arguments. Here: the two programs' gather and scatter-add
  stages are the same terms (`summed_eq`, `counts_eq`), and the five claims.
-/
import proofs.«130643_j2319282339967_2_alg».proof.Defs
import proofs.«130643_j2319282339967_2_alg».proof.Proof.Gen.Kernel
import proofs.«130643_j2319282339967_2_alg».proof.Proof.Gen.Kernel.Skeleton
import proofs.«130643_j2319282339967_2_alg».proof.Proof.Gen.Kernel.Launch
import proofs.«130643_j2319282339967_2_alg».proof.Proof.Gen.Kernel.Points
import proofs.«130643_j2319282339967_2_alg».proof.Proof.Gen.Kernel.Frame
import proofs.«130643_j2319282339967_2_alg».proof.Proof.Gen.KernelIdeal
import proofs.«130643_j2319282339967_2_alg».proof.Proof.Gen.KernelIdeal.Skeleton
import proofs.«130643_j2319282339967_2_alg».proof.Proof.Gen.KernelIdeal.Launch
import proofs.«130643_j2319282339967_2_alg».proof.Proof.Gen.KernelIdeal.Points
import proofs.«130643_j2319282339967_2_alg».proof.Proof.Gen.KernelIdeal.Frame
import proofs.«130643_j2319282339967_2_alg».proof.Proof.Gen.ReferenceIdeal
import proofs.«130643_j2319282339967_2_alg».proof.Proof.Gen.Pre_finite_inputs
import proofs.«130643_j2319282339967_2_alg».proof.Proof.Gen.KernelIdeal.Value
import proofs.«130643_j2319282339967_2_alg».proof.Proof.Gen.ReferenceIdeal.Run
import proofs.«130643_j2319282339967_2_alg».proof.Proof.Gen.ReferenceIdeal.Read
import proofs.«130643_j2319282339967_2_alg».proof.Proof.KernelArray
import proofs.«130643_j2319282339967_2_alg».proof.Proof.RefLayer
import Idealize.ShloMosaic.Adequacy
import Idealize.ShloMosaic.Init

noncomputable section

namespace Cert.Proof

open Idealize.ShloMosaic Idealize.SL.Sem

/-- The per-node neighbour sums are one term in the two programs: each program prints its own copies of the shapes and
    of the gather's and the scatter's dimension records, with the same fields. -/
theorem summed_eq (x : (⟨Cert.KernelIdeal.S10000x128, .f32⟩ : BufTy).Contents (Elt Ideal))
    (e : (⟨Cert.KernelIdeal.S2x640000, .i32⟩ : BufTy).Contents (Elt Ideal)) :
    Cert.SageLayer.Kernel.summed (F := Ideal) x e = Cert.ReferenceIdeal.Read.val_main_v13 (F := Ideal) x e := rfl

/-- So are the per-node neighbour counts. -/
theorem counts_eq (e : (⟨Cert.KernelIdeal.S2x640000, .i32⟩ : BufTy).Contents (Elt Ideal)) :
    Cert.SageLayer.Kernel.counts (F := Ideal) e = Cert.ReferenceIdeal.Read.val_main_v17 (F := Ideal) e := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in the kernel. -/
theorem preserves : Cert.preserves_Kernel_KernelIdeal := trivial

/-- Both programs end with the layer of the arguments in their result arrays. -/
theorem algebraic : Cert.algebraic_KernelIdeal_ReferenceIdeal := by
  intro m ρ m' ρ' _ hagree
  refine ⟨fun c => Cert.SageLayer.Kernel.result m c, Cert.SageLayer.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v32_eq, Cert.SageLayer.Reference.result_eq, h0, h1, h2, h3, h4, h5]
  show _ = Cert.SageLayer.Kernel.result m c
  unfold Cert.SageLayer.Kernel.result
  rw [summed_eq, counts_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
